-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4000x512 : Shape := ⟨3, ![16, 4000, 512]⟩
abbrev S257x512 : Shape := ⟨2, ![257, 512]⟩
abbrev S_ : Shape := ⟨0, ![]⟩

class Facts : Prop where
  bcast_S_S16x4000x512 : S_.BroadcastsInDim S16x4000x512 (![] : Fin 0 → Fin S16x4000x512.rank)
  reducesTo_S16x4000x512_S_d0_1_2 : S16x4000x512.ReducesTo [0, 1, 2] S_
  h_S_ : 0 < S_.numel
  bcast_S_S257x512 : S_.BroadcastsInDim S257x512 (![] : Fin 0 → Fin S257x512.rank)
  reducesTo_S257x512_S_d0_1 : S257x512.ReducesTo [0, 1] S_

variable [Facts]

def fn {F : FTy → Type} [FloatOps F] (main_arg0 : FVec F S16x4000x512 .f32) (main_arg1 : FVec F S257x512 .f32) (main_arg2 : FVec F S257x512 .f32) : IVec S_ 1 :=
  let main_v0 : FVec F S16x4000x512 .f32 := Host.absf main_arg0
  let main_cst : FVec F S_ .f32 := constant S_ .f32 0x7F800000#32
  let main_v1 : FVec F S16x4000x512 .f32 := broadcastInDim S16x4000x512 ![] bcast_S_S16x4000x512 main_cst
  let main_v2 : IVec S16x4000x512 1 := cmpf .olt main_v0 main_v1
  let main_c : IVec S_ 1 := constantI S_ 1 1#1
  let main_v3 : IVec S_ 1 := (fun x v => Host.reduce IntOp.andi x v reducesTo_S16x4000x512_S_d0_1_2 h_S_) main_v2 main_c
  let main_v4 : FVec F S257x512 .f32 := Host.absf main_arg1
  let main_cst_0 : FVec F S_ .f32 := constant S_ .f32 0x7F800000#32
  let main_v5 : FVec F S257x512 .f32 := broadcastInDim S257x512 ![] bcast_S_S257x512 main_cst_0
  let main_v6 : IVec S257x512 1 := cmpf .olt main_v4 main_v5
  let main_c_1 : IVec S_ 1 := constantI S_ 1 1#1
  let main_v7 : IVec S_ 1 := (fun x v => Host.reduce IntOp.andi x v reducesTo_S257x512_S_d0_1 h_S_) main_v6 main_c_1
  let main_v8 : IVec S_ 1 := andi main_v3 main_v7
  let main_v9 : FVec F S257x512 .f32 := Host.absf main_arg2
  let main_cst_2 : FVec F S_ .f32 := constant S_ .f32 0x7F800000#32
  let main_v10 : FVec F S257x512 .f32 := broadcastInDim S257x512 ![] bcast_S_S257x512 main_cst_2
  let main_v11 : IVec S257x512 1 := cmpf .olt main_v9 main_v10
  let main_c_3 : IVec S_ 1 := constantI S_ 1 1#1
  let main_v12 : IVec S_ 1 := (fun x v => Host.reduce IntOp.andi x v reducesTo_S257x512_S_d0_1 h_S_) main_v11 main_c_3
  let main_v13 : IVec S_ 1 := andi main_v8 main_v12
  main_v13
-- ==== Kernel.lean ====
abbrev S16x4000x512 : Shape := ⟨3, ![16, 4000, 512]⟩
abbrev S257x512 : Shape := ⟨2, ![257, 512]⟩
abbrev S512x257 : Shape := ⟨2, ![512, 257]⟩
abbrev S512x257x1 : Shape := ⟨3, ![512, 257, 1]⟩
abbrev S512x257x2 : Shape := ⟨3, ![512, 257, 2]⟩
abbrev S512x514 : Shape := ⟨2, ![512, 514]⟩
abbrev S64000x512 : Shape := ⟨2, ![64000, 512]⟩
abbrev S64000x514 : Shape := ⟨2, ![64000, 514]⟩
abbrev S3200x512 : Shape := ⟨2, ![3200, 512]⟩
abbrev S3200x514 : Shape := ⟨2, ![3200, 514]⟩
abbrev S16x4000x514 : Shape := ⟨3, ![16, 4000, 514]⟩

abbrev nBuf : Space → Nat
  | .hbm => 13
  | .vmem => 5
  | .smem => 0
  | _ => 0

abbrev bufTy : (tb : Table) → Fin (tcTables nBuf tb) → BufTy
  | .hbm, ⟨0, _⟩ => ⟨S16x4000x512, .f32⟩
  | .hbm, ⟨1, _⟩ => ⟨S257x512, .f32⟩
  | .hbm, ⟨2, _⟩ => ⟨S257x512, .f32⟩
  | .hbm, ⟨3, _⟩ => ⟨S512x257, .f32⟩
  | .hbm, ⟨4, _⟩ => ⟨S512x257, .f32⟩
  | .hbm, ⟨5, _⟩ => ⟨S512x257x1, .f32⟩
  | .hbm, ⟨6, _⟩ => ⟨S512x257x1, .f32⟩
  | .hbm, ⟨7, _⟩ => ⟨S512x257x2, .f32⟩
  | .hbm, ⟨8, _⟩ => ⟨S512x514, .f32⟩
  | .hbm, ⟨9, _⟩ => ⟨S512x514, .bf16⟩
  | .hbm, ⟨10, _⟩ => ⟨S64000x512, .f32⟩
  | .hbm, ⟨11, _⟩ => ⟨S64000x514, .f32⟩
  | .hbm, ⟨12, _⟩ => ⟨S16x4000x514, .f32⟩
  | .local _ .vmem, ⟨0, _⟩ => ⟨S3200x512, .f32⟩
  | .local _ .vmem, ⟨1, _⟩ => ⟨S3200x512, .f32⟩
  | .local _ .vmem, ⟨2, _⟩ => ⟨S512x514, .bf16⟩
  | .local _ .vmem, ⟨3, _⟩ => ⟨S3200x514, .f32⟩
  | .local _ .vmem, ⟨4, _⟩ => ⟨S3200x514, .f32⟩
  | _, _ => ⟨S16x4000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x514 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3200x514 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S257x512_S512x257_1_0 : S257x512.Transposes [1, 0] S512x257
  bcast_S512x257_S512x257x1_0_1 : S512x257.BroadcastsInDim S512x257x1 (![0, 1] : Fin 2 → Fin S512x257x1.rank)
  concatenates_S512x257x1_S512x257x1_S512x257x2_d2 : Shape.Concatenates [S512x257x1, S512x257x1] S512x257x2 2
  shapeCasts_S512x257x2_S512x514 : S512x257x2.ShapeCasts S512x514
  bitsLt_bf16_f32 : FTy.bits .bf16 < FTy.bits .f32
  shapeCasts_S16x4000x512_S64000x512 : S16x4000x512.ShapeCasts S64000x512
  inb_S3200x512_S3200x512_0_0 : ∀ a, (![0, 0] : Fin 2 → Nat) a + S3200x512.size a ≤ S3200x512.size a
  h_S3200x512 : 0 < S3200x512.numel
  shapeCasts_S3200x512_S3200x512 : S3200x512.ShapeCasts S3200x512
  inb_S512x514_S512x514_0_0 : ∀ a, (![0, 0] : Fin 2 → Nat) a + S512x514.size a ≤ S512x514.size a
  h_S512x514 : 0 < S512x514.numel
  shapeCasts_S512x514_S512x514 : S512x514.ShapeCasts S512x514
  inb_S3200x514_S3200x514_0_0 : ∀ a, (![0, 0] : Fin 2 → Nat) a + S3200x514.size a ≤ S3200x514.size a
  h_S3200x514 : 0 < S3200x514.numel
  shapeCasts_S64000x514_S16x4000x514 : S64000x514.ShapeCasts S16x4000x514
  dot_S3200x512_S512x514_S3200x514_1_0_0_1_n_n_wf : DotDims.WF S3200x512 S512x514 S3200x514 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x512.size a ≤ S64000x512.size a
  hwx0_0 : ∀ i : grid0.Coords, EltTy.bits .f32 = 32 ∨ (Rect.block (s := S64000x512) S3200x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x514.size a ≤ S512x514.size a
  hwx0_1 : ∀ i : grid0.Coords, EltTy.bits .bf16 = 32 ∨ (Rect.block (s := S512x514) S512x514.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x514.size a ≤ S64000x514.size a
  hwx0_2 : ∀ i : grid0.Coords, EltTy.bits .f32 = 32 ∨ (Rect.block (s := S64000x514) S3200x514.size (cc0_transform_2 i) (hinb0_2 i)).WholeWords (EltTy.packing .f32)

variable [Facts₀]

def dot_S3200x512_S512x514_S3200x514_1_0_0_1_n_n : DotDims S3200x512 S512x514 S3200x514 where
  lhsContracting := [1]
  rhsContracting := [0]
  lhsNonContracting := [0]
  rhsNonContracting := [1]
  lhsBatch := []
  rhsBatch := []
  wf := dot_S3200x512_S512x514_S3200x514_1_0_0_1_n_n_wf

abbrev win0_0 : Pipeline.Window sig grid0 :=
  Pipeline.Window.ofSpec (Memref.whole main_v7) S3200x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x514.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S3200x514.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4000x512 : Shape := ⟨3, ![16, 4000, 512]⟩
abbrev S257x512 : Shape := ⟨2, ![257, 512]⟩
abbrev S16x4000x257 : Shape := ⟨3, ![16, 4000, 257]⟩
abbrev S16x4000x257x1 : Shape := ⟨4, ![16, 4000, 257, 1]⟩
abbrev S16x4000x257x2 : Shape := ⟨4, ![16, 4000, 257, 2]⟩
abbrev S16x4000x514 : Shape := ⟨3, ![16, 4000, 514]⟩

abbrev nBuf : Space → Nat
  | .hbm => 9
  | .vmem => 0
  | .smem => 0
  | _ => 0

abbrev bufTy : (tb : Table) → Fin (tcTables nBuf tb) → BufTy
  | .hbm, ⟨0, _⟩ => ⟨S16x4000x512, .f32⟩
  | .hbm, ⟨1, _⟩ => ⟨S257x512, .f32⟩
  | .hbm, ⟨2, _⟩ => ⟨S257x512, .f32⟩
  | .hbm, ⟨3, _⟩ => ⟨S16x4000x257, .f32⟩
  | .hbm, ⟨4, _⟩ => ⟨S16x4000x257, .f32⟩
  | .hbm, ⟨5, _⟩ => ⟨S16x4000x257x1, .f32⟩
  | .hbm, ⟨6, _⟩ => ⟨S16x4000x257x1, .f32⟩
  | .hbm, ⟨7, _⟩ => ⟨S16x4000x257x2, .f32⟩
  | .hbm, ⟨8, _⟩ => ⟨S16x4000x514, .f32⟩
  | _, _ => ⟨S16x4000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S16x4000x257_S16x4000x257x1_0_1_2 : S16x4000x257.BroadcastsInDim S16x4000x257x1 (![0, 1, 2] : Fin 3 → Fin S16x4000x257x1.rank)
  concatenates_S16x4000x257x1_S16x4000x257x1_S16x4000x257x2_d3 : Shape.Concatenates [S16x4000x257x1, S16x4000x257x1] S16x4000x257x2 3
  shapeCasts_S16x4000x257x2_S16x4000x514 : S16x4000x257x2.ShapeCasts S16x4000x514
  dot_S16x4000x512_S257x512_S16x4000x257_2_1_01_0_n_n_wf : DotDims.WF S16x4000x512 S257x512 S16x4000x257 [2] [1] [0, 1] [0] [] []

variable [Facts₀]

def dot_S16x4000x512_S257x512_S16x4000x257_2_1_01_0_n_n : DotDims S16x4000x512 S257x512 S16x4000x257 where
  lhsContracting := [2]
  rhsContracting := [1]
  lhsNonContracting := [0, 1]
  rhsNonContracting := [0]
  lhsBatch := []
  rhsBatch := []
  wf := dot_S16x4000x512_S257x512_S16x4000x257_2_1_01_0_n_n_wf

class Facts : Prop extends Facts₀ where

variable [Facts]
-- ==== Proof.DftSpec.lean ====
/-
  The one-sided discrete Fourier transform as ONE function of the argument arrays, over the extended reals.

  For a frame `x[b, f, ·]` of 512 samples and the two tables `re[k, n]`, `im[k, n]` (257 bins, 512 samples) the result
  interleaves the real and imaginary parts bin by bin: column `q` of the result belongs to bin `q / 2`, and it is the real part
  when `q` is even, the imaginary part when `q` is odd:

      dft x re im [b, f, q] = Σ_n x[b, f, n] · (if q even then re else im)[q / 2, n].

  Both programs compute this sum with the samples in the same order `n = 0 … 511`, the sample on the left of each product,
  so no law of the extended reals beyond the definitions is needed to join them: the kernel reaches it as a plain matrix
  product `rows x · weights re im` of the frames laid out as 64000 rows and the interleaved 512 × 514 weight matrix
  `weights re im [n, q] = (if q even then re else im)[q / 2, n]`.
-/
import Idealize.ShloMosaic.PureOps.Ideal
import Idealize.ShloMosaic.Lib.ValueIdx

noncomputable section

namespace Cert.Dft

open Idealize.ShloMosaic Idealize.ShloMosaic.ValueIdx

/-- The frequency bin an interleaved column belongs to. -/
def bin (q : Fin 514) : Fin 257 := ⟨q.val / 2, by have := q.isLt; omega⟩

/-- The table an interleaved column reads: the real table at an even column, the imaginary table at an odd one. -/
def table (re im : (⟨2, ![257, 512]⟩ : Shape).Idx → EReal) (q : Fin 514) : (⟨2, ![257, 512]⟩ : Shape).Idx → EReal :=
  if q.val % 2 = 0 then re else im

theorem table_even (re im : (⟨2, ![257, 512]⟩ : Shape).Idx → EReal) (q : Fin 514) (h : q.val % 2 = 0) : table re im q = re :=
  if_pos h

theorem table_odd (re im : (⟨2, ![257, 512]⟩ : Shape).Idx → EReal) (q : Fin 514) (h : q.val % 2 = 1) : table re im q = im :=
  if_neg (by omega)

/-- The interleaved weight matrix: entry `[n, q]` is sample `n` of bin `q / 2` of the table column `q` reads. -/
def weights (re im : (⟨2, ![257, 512]⟩ : Shape).Idx → EReal) : (⟨2, ![512, 514]⟩ : Shape).Idx → EReal :=
  fun j => table re im (j 1) (ix2 (bin (j 1)) (j 0))

/-- The frames as the rows of one matrix: row `r` is frame `r % 4000` of batch entry `r / 4000`. -/
def rows (x : (⟨3, ![16, 4000, 512]⟩ : Shape).Idx → EReal) : (⟨2, ![64000, 512]⟩ : Shape).Idx → EReal :=
  fun j => x (ix3 ⟨(j 0).val / 4000, by have h : (j 0).val < 64000 := (j 0).isLt; omega⟩ ⟨(j 0).val % 4000, by omega⟩ (j 1))

/-- The plain matrix product of 64000 rows of 512 samples with a 512 × 514 matrix, the contraction in its order. -/
def mm (A : (⟨2, ![64000, 512]⟩ : Shape).Idx → EReal) (W : (⟨2, ![512, 514]⟩ : Shape).Idx → EReal) :
    (⟨2, ![64000, 514]⟩ : Shape).Idx → EReal :=
  fun j => ∑ n : Fin 512, A (ix2 (j 0) n) * W (ix2 n (j 1))

/-- THE SPECIFICATION: the interleaved one-sided transform of every frame. -/
def dft (x : (⟨3, ![16, 4000, 512]⟩ : Shape).Idx → EReal) (re im : (⟨2, ![257, 512]⟩ : Shape).Idx → EReal) :
    (⟨3, ![16, 4000, 514]⟩ : Shape).Idx → EReal :=
  fun i => ∑ n : Fin 512, x (ix3 (i 0) (i 1) n) * table re im (i 2) (ix2 (bin (i 2)) n)

/-- The matrix product of the flattened frames with the interleaved weights, read at row `b · 4000 + f`, is the transform of
    frame `[b, f]`: the row's quotient and remainder by 4000 are `b` and `f`. -/
theorem mm_rows_weights (x : (⟨3, ![16, 4000, 512]⟩ : Shape).Idx → EReal) (re im : (⟨2, ![257, 512]⟩ : Shape).Idx → EReal)
    (i : (⟨3, ![16, 4000, 514]⟩ : Shape).Idx) (r : Fin 64000) (hr : r.val = (i 0).val * 4000 + (i 1).val) :
    mm (rows x) (weights re im) (ix2 r (i 2)) = dft x re im i := by
  unfold mm dft rows weights
  refine Finset.sum_congr rfl fun n _ => ?_
  have h1 : (i 1).val < 4000 := (i 1).isLt
  have e : (ix3 (⟨r.val / 4000, by have := r.isLt; omega⟩ : Fin 16) (⟨r.val % 4000, by omega⟩ : Fin 4000) n
      : (⟨3, ![16, 4000, 512]⟩ : Shape).Idx) = ix3 (i 0) (i 1) n := by
    funext a
    apply Fin.ext
    match a with
    | ⟨0, _⟩ => show r.val / 4000 = (i 0).val; omega
    | ⟨1, _⟩ => show r.val % 4000 = (i 1).val; omega
    | ⟨2, _⟩ => rfl
  exact congrArg (· * _) (congrArg x e)

end Cert.Dft

end
-- ==== Proof.ReferenceIsDft.lean ====
/-
  The reference computes the specification.

  The reference contracts every frame with the real table and with the imaginary table (two products over the 512 samples, the
  sample on the left), gives each result a trailing unit axis, joins the two along that axis and flattens the last two axes:
  flat column `q` of the result is entry `[q / 2, q % 2]` of the joined array, that is the real product of bin `q / 2` when
  `q` is even and the imaginary one when `q` is odd. That is `Cert.Dft.dft`, index by index, with no law of the extended
  reals used.
-/
import proofs.«153777_j56049323213334_2_alg».proof.Proof.Gen.ReferenceIdeal.Read
import proofs.«153777_j56049323213334_2_alg».proof.Proof.DftSpec

noncomputable section

namespace Cert.ReferenceIdeal.RefValue

open Cert.ReferenceIdeal Cert.ReferenceIdeal.Gen Cert.ReferenceIdeal.Read Idealize.ShloMosaic Idealize.ShloMosaic.ValueIdx Cert.Dft

/-- The reference's last stage is the specification of its three arguments. -/
theorem reference_eq (x : (⟨S16x4000x512, .f32⟩ : BufTy).Contents (Elt Ideal)) (re im : (⟨S257x512, .f32⟩ : BufTy).Contents (Elt Ideal)) :
    val_main_v5 (F := Ideal) x re im = dft x re im := by
  funext i
  have h0 : (i 0).val < 16 := (i 0).isLt
  have h1 : (i 1).val < 4000 := (i 1).isLt
  have h2 : (i 2).val < 514 := (i 2).isLt
  -- the flat index, split into its four coordinates before the last two axes were merged
  have c0 : (idx_main_v5 i 0).val = (i 0).val := by
    show (((i 0).val * 4000 + (i 1).val) * 514 + (i 2).val) / 2056000 = (i 0).val; omega
  have c1 : (idx_main_v5 i 1).val = (i 1).val := by
    show (((i 0).val * 4000 + (i 1).val) * 514 + (i 2).val) / 514 % 4000 = (i 1).val; omega
  have c2 : (idx_main_v5 i 2).val = (i 2).val / 2 := by
    show (((i 0).val * 4000 + (i 1).val) * 514 + (i 2).val) / 2 % 257 = (i 2).val / 2; omega
  have c3 : (idx_main_v5 i 3).val = (i 2).val % 2 := by
    show (((i 0).val * 4000 + (i 1).val) * 514 + (i 2).val) % 2 = (i 2).val % 2; omega
  rw [val_main_v5_apply]
  unfold val_main_v4
  have el : ∀ (K : S16x4000x257x1.Idx), (K 0).val = (idx_main_v5 i 0).val → (K 1).val = (idx_main_v5 i 1).val →
      ∀ n : Fin 512, lidx_main_v0 (idx_main_v2 K) n = ix3 (i 0) (i 1) n := fun K k0 k1 n =>
    funext fun a => Fin.ext (by
      match a with
      | ⟨0, _⟩ => exact k0.trans c0
      | ⟨1, _⟩ => exact k1.trans c1
      | ⟨2, _⟩ => rfl)
  have er : ∀ (K : S16x4000x257x1.Idx), (K 2).val = (idx_main_v5 i 2).val →
      ∀ n : Fin 512, ridx_main_v0 (idx_main_v2 K) n = ix2 (bin (i 2)) n := fun K k2 n =>
    funext fun a => Fin.ext (by
      match a with
      | ⟨0, _⟩ => exact k2.trans c2
      | ⟨1, _⟩ => rfl)
  unfold dft
  by_cases hp : (i 2).val % 2 = 0
  · -- an even column: the first piece, the real product
    refine (concatenate_pair_apply_left (s₁ := S16x4000x257x1) (s₂ := S16x4000x257x1) (3 : Fin 4) _ _ concatenates_S16x4000x257x1_S16x4000x257x1_S16x4000x257x2_d3
      (idx_main_v5 i) rfl (ix4 (idx_main_v5 i 0) (idx_main_v5 i 1) (idx_main_v5 i 2) (⟨0, by decide⟩ : Fin 1)) (fun b => by
        match b with
        | ⟨0, _⟩ => rfl
        | ⟨1, _⟩ => rfl
        | ⟨2, _⟩ => rfl
        | ⟨3, _⟩ => exact (c3.trans hp).symm)).trans ?_
    rw [val_main_v2_apply, val_main_v0_apply, table_even re im (i 2) hp]
    refine Finset.sum_congr rfl fun n _ => ?_
    rw [el _ rfl rfl n, er _ rfl n]
    rfl
  · -- an odd column: the second piece, the imaginary product
    have hp1 : (i 2).val % 2 = 1 := by omega
    refine (concatenate_pair_apply_right (s₁ := S16x4000x257x1) (s₂ := S16x4000x257x1) (3 : Fin 4) _ _ concatenates_S16x4000x257x1_S16x4000x257x1_S16x4000x257x2_d3
      (idx_main_v5 i) rfl rfl (ix4 (idx_main_v5 i 0) (idx_main_v5 i 1) (idx_main_v5 i 2) (⟨0, by decide⟩ : Fin 1)) (fun b hb => by
        match b with
        | ⟨0, _⟩ => rfl
        | ⟨1, _⟩ => rfl
        | ⟨2, _⟩ => rfl
        | ⟨3, _⟩ => exact absurd rfl hb) (by
        show 0 + 1 = (idx_main_v5 i 3).val
        rw [c3, hp1])).trans ?_
    rw [val_main_v3_apply, val_main_v1_apply, table_odd re im (i 2) hp1]
    refine Finset.sum_congr rfl fun n _ => ?_
    rw [show lidx_main_v1 = lidx_main_v0 from rfl, show ridx_main_v1 = ridx_main_v0 from rfl,
      show idx_main_v3 = idx_main_v2 from rfl, el _ rfl rfl n, er _ rfl n]
    rfl

end Cert.ReferenceIdeal.RefValue

end
-- ==== Proof.MatmulBody.lean ====
/-
  What the kernel body stores, read at an index, over the extended reals.

  The body loads a block of 3200 rows of 512 samples and the whole 512 × 514 weight matrix, changes the rows' float format
  (the identity on extended reals), and stores their matrix product accumulated onto a zero splat. So entry `[p, q]` of what
  it stores is `Σ_n rows[p, n] · weights[n, q]`: the accumulator contributes `0`, and the contraction of the product's
  dimension numbers (left axis 1 against right axis 0, no batch axis) is re-indexed to `n : Fin 512`.
-/
import proofs.«153777_j56049323213334_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The left operand's row coordinate is the result's row. -/
theorem lhs_row (j : S3200x514.Idx) (k : dot_S3200x512_S512x514_S3200x514_1_0_0_1_n_n.contr.Idx) :
    (dot_S3200x512_S512x514_S3200x514_1_0_0_1_n_n.lhsIdx j k 0).val = (j 0).val := by
  unfold DotDims.lhsIdx
  rw [dif_neg (show ¬(0 : Fin S3200x512.rank) ∈ dot_S3200x512_S512x514_S3200x514_1_0_0_1_n_n.lhsBatch by decide),
    dif_pos (show (0 : Fin S3200x512.rank) ∈ dot_S3200x512_S512x514_S3200x514_1_0_0_1_n_n.lhsNonContracting by decide)]
  rfl

/-- The left operand's column coordinate is the contraction's. -/
theorem lhs_col (j : S3200x514.Idx) (k : dot_S3200x512_S512x514_S3200x514_1_0_0_1_n_n.contr.Idx) :
    (dot_S3200x512_S512x514_S3200x514_1_0_0_1_n_n.lhsIdx j k 1).val = (k ⟨0, by decide⟩).val :=
  dot_S3200x512_S512x514_S3200x514_1_0_0_1_n_n.lhsIdx_val_of_single rfl j k

/-- The right operand's row coordinate is the contraction's. -/
theorem rhs_row (j : S3200x514.Idx) (k : dot_S3200x512_S512x514_S3200x514_1_0_0_1_n_n.contr.Idx) :
    (dot_S3200x512_S512x514_S3200x514_1_0_0_1_n_n.rhsIdx j k 0).val = (k ⟨0, by decide⟩).val :=
  dot_S3200x512_S512x514_S3200x514_1_0_0_1_n_n.rhsIdx_val_of_single rfl j k

/-- The right operand's column coordinate is the result's column. -/
theorem rhs_col (j : S3200x514.Idx) (k : dot_S3200x512_S512x514_S3200x514_1_0_0_1_n_n.contr.Idx) :
    (dot_S3200x512_S512x514_S3200x514_1_0_0_1_n_n.rhsIdx j k 1).val = (j 1).val := by
  unfold DotDims.rhsIdx
  rw [dif_neg (show ¬(1 : Fin S512x514.rank) ∈ dot_S3200x512_S512x514_S3200x514_1_0_0_1_n_n.rhsBatch by decide),
    dif_pos (show (1 : Fin S512x514.rank) ∈ dot_S3200x512_S512x514_S3200x514_1_0_0_1_n_n.rhsNonContracting by decide)]
  rfl

/-- WHAT THE BODY STORES at `[p, q]`: the row `p` of the loaded block against column `q` of the loaded weights. -/
theorem stored_apply (x0 : FVec Ideal S3200x512 .f32) (x1 : FVec Ideal S512x514 .bf16) (j : S3200x514.Idx) :
    k0_pay1 (F := Ideal) x0 x1 j = ∑ n : Fin 512, x0 (ix2 (j 0) n) * x1 (ix2 n (j 1)) := by
  unfold k0_pay1
  simp only [shapeCast_self]
  refine (Ideal.matmul_constant_zero_apply dot_S3200x512_S512x514_S3200x514_1_0_0_1_n_n none
    (truncf .bf16 x0 bitsLt_bf16_f32) x1 j).trans ?_
  rw [← Equiv.sum_comp (contrEquiv1 dot_S3200x512_S512x514_S3200x514_1_0_0_1_n_n 512 rfl rfl).symm]
  refine Finset.sum_congr rfl fun n _ => ?_
  have hk := contrEquiv1_symm_val dot_S3200x512_S512x514_S3200x514_1_0_0_1_n_n 512 rfl rfl n
  have el : dot_S3200x512_S512x514_S3200x514_1_0_0_1_n_n.lhsIdx j
      ((contrEquiv1 dot_S3200x512_S512x514_S3200x514_1_0_0_1_n_n 512 rfl rfl).symm n) = ix2 (j 0) n :=
    funext fun a => Fin.ext (by
      match a with
      | ⟨0, _⟩ => exact lhs_row _ _
      | ⟨1, _⟩ => exact (lhs_col _ _).trans hk)
  have er : dot_S3200x512_S512x514_S3200x514_1_0_0_1_n_n.rhsIdx j
      ((contrEquiv1 dot_S3200x512_S512x514_S3200x514_1_0_0_1_n_n 512 rfl rfl).symm n) = ix2 n (j 1) :=
    funext fun a => Fin.ext (by
      match a with
      | ⟨0, _⟩ => exact (rhs_row _ _).trans hk
      | ⟨1, _⟩ => exact rhs_col _ _)
  rw [el, er]
  rfl

end Cert.KernelIdeal.Body

end
-- ==== Proof.Operands.lean ====
/-
  The two arrays the kernel's region is launched on, and the reshape after it, read at an index over the extended reals.

  Before the region the host lays the two tables out as ONE 512 × 514 weight matrix: each table transposed to
  samples × bins, given a trailing unit axis, the two joined along that axis and the last two axes merged — so flat column `q`
  is entry `[q / 2, q % 2]` of the joined array: the real table's bin `q / 2` at an even `q`, the imaginary table's at an odd one.
  The change of float format that follows is the identity on extended reals. That is `Cert.Dft.weights`.
  The frames are merged into 64000 rows (`Cert.Dft.rows`); after the region the 64000 × 514 product is split back into
  16 × 4000 × 514, row `b · 4000 + f` becoming frame `[b, f]`.
-/
import proofs.«153777_j56049323213334_2_alg».proof.Proof.Gen.KernelIdeal
import proofs.«153777_j56049323213334_2_alg».proof.Proof.DftSpec
import Idealize.ShloMosaic.Lib.ValueIdx
import Idealize.ShloMosaic.Lib.Pipeline.Value

noncomputable section

namespace Cert.KernelIdeal.Operands

open Cert.KernelIdeal Idealize.ShloMosaic Idealize.ShloMosaic.ValueIdx Cert.Dft
open Facts₀

/-- The host's layout of the two tables as one weight matrix, as the operations before the region compose it. -/
def interleave (re im : FVec Ideal S257x512 .f32) : FVec Ideal S512x514 .bf16 :=
  truncf .bf16 (shapeCast S512x514
    (concatenate S512x257x2 2
      [⟨S512x257x1, broadcastInDim S512x257x1 ![0, 1] bcast_S512x257_S512x257x1_0_1 (transpose S512x257 [1, 0] re transposes_S257x512_S512x257_1_0)⟩,
       ⟨S512x257x1, broadcastInDim S512x257x1 ![0, 1] bcast_S512x257_S512x257x1_0_1 (transpose S512x257 [1, 0] im transposes_S257x512_S512x257_1_0)⟩]
      concatenates_S512x257x1_S512x257x1_S512x257x2_d2)
    shapeCasts_S512x257x2_S512x514) bitsLt_bf16_f32

/-- A table transposed and given a trailing unit axis, read at `[n, k, 0]`, is the table at `[k, n]`. -/
theorem column_apply (tb : FVec Ideal S257x512 .f32) (K : S512x257x1.Idx) :
    broadcastInDim S512x257x1 ![0, 1] bcast_S512x257_S512x257x1_0_1 (transpose S512x257 [1, 0] tb transposes_S257x512_S512x257_1_0) K
      = tb (ix2 (K 1) (K 0)) := by
  refine (broadcastInDim_apply _ bcast_S512x257_S512x257x1_0_1 _ K (ix2 (K 0) (K 1)) (fun a => by
    match a with
    | ⟨0, _⟩ => show (K 0).val = if (512 : Nat) = 1 then 0 else (K 0).val; rw [if_neg (by decide)]
    | ⟨1, _⟩ => show (K 1).val = if (257 : Nat) = 1 then 0 else (K 1).val; rw [if_neg (by decide)])).trans ?_
  exact transpose_apply _ tb transposes_S257x512_S512x257_1_0 (ix2 (K 0) (K 1)) (ix2 (K 1) (K 0)) (fun b => by
    match b with
    | ⟨0, _⟩ => rfl
    | ⟨1, _⟩ => rfl)

/-- The host's weight matrix is the interleaved one of the specification. -/
theorem interleave_eq (re im : FVec Ideal S257x512 .f32) : interleave re im = weights re im := by
  funext j
  have h0 : (j 0).val < 512 := (j 0).isLt
  have h1 : (j 1).val < 514 := (j 1).isLt
  unfold interleave weights
  rw [truncf_apply]
  refine (shapeCast_apply _ shapeCasts_S512x257x2_S512x514 j
    (ix3 (j 0) (bin (j 1)) (⟨(j 1).val % 2, by omega⟩ : Fin 2)) (by
      rewrite [Shape.rowMajor_val_three, Shape.rowMajor_val_two]
      show ((j 0).val * 257 + (j 1).val / 2) * 2 + (j 1).val % 2 = (j 0).val * 514 + (j 1).val
      omega)).trans ?_
  by_cases hp : (j 1).val % 2 = 0
  · refine (concatenate_pair_apply_left (t := S512x257x2) (s₁ := S512x257x1) (s₂ := S512x257x1) (2 : Fin 3) _ _ concatenates_S512x257x1_S512x257x1_S512x257x2_d2
      (ix3 (j 0) (bin (j 1)) (⟨(j 1).val % 2, by omega⟩ : Fin 2)) rfl
      (ix3 (j 0) (bin (j 1)) (⟨0, by decide⟩ : Fin 1)) (fun b => by
        match b with
        | ⟨0, _⟩ => rfl
        | ⟨1, _⟩ => rfl
        | ⟨2, _⟩ => exact hp.symm)).trans ?_
    rw [column_apply, table_even re im (j 1) hp]
  · have hp1 : (j 1).val % 2 = 1 := by omega
    refine (concatenate_pair_apply_right (t := S512x257x2) (s₁ := S512x257x1) (s₂ := S512x257x1) (2 : Fin 3) _ _ concatenates_S512x257x1_S512x257x1_S512x257x2_d2
      (ix3 (j 0) (bin (j 1)) (⟨(j 1).val % 2, by omega⟩ : Fin 2)) rfl rfl
      (ix3 (j 0) (bin (j 1)) (⟨0, by decide⟩ : Fin 1)) (fun b hb => by
        match b with
        | ⟨0, _⟩ => rfl
        | ⟨1, _⟩ => rfl
        | ⟨2, _⟩ => exact absurd rfl hb) (by
        show 0 + 1 = (j 1).val % 2
        rw [hp1])).trans ?_
    rw [column_apply, table_odd re im (j 1) hp1]

/-- The frames merged into rows are the rows of the specification. -/
theorem merged_eq (x : FVec Ideal S16x4000x512 .f32) :
    shapeCast S64000x512 x shapeCasts_S16x4000x512_S64000x512 = rows x := by
  funext j
  have h0 : (j 0).val < 64000 := (j 0).isLt
  unfold rows
  exact shapeCast_apply x shapeCasts_S16x4000x512_S64000x512 j _ (by
    rewrite [Shape.rowMajor_val_three, Shape.rowMajor_val_two]
    show ((j 0).val / 4000 * 4000 + (j 0).val % 4000) * 512 + (j 1).val = (j 0).val * 512 + (j 1).val
    omega)

/-- The product split back into frames, read at `[b, f, q]`, is the product at row `b · 4000 + f`. -/
theorem split_apply (y : FVec Ideal S64000x514 .f32) (i : S16x4000x514.Idx) (r : Fin 64000) (hr : r.val = (i 0).val * 4000 + (i 1).val) :
    shapeCast S16x4000x514 y shapeCasts_S64000x514_S16x4000x514 i = y (ix2 r (i 2)) :=
  shapeCast_apply y shapeCasts_S64000x514_S16x4000x514 i (ix2 r (i 2)) (by
    rewrite [Shape.rowMajor_val_three, Shape.rowMajor_val_two]
    show r.val * 514 + (i 2).val = ((i 0).val * 4000 + (i 1).val) * 514 + (i 2).val
    rw [hr])

end Cert.KernelIdeal.Operands

end
-- ==== Proof.KernelValue.lean ====
/-
  What the kernel's result array holds after the run, over the extended reals.

  The region is launched on the frames merged into 64000 rows and on the interleaved weight matrix, and walks the rows in 20
  blocks of 3200: at point `t` it fetches rows `3200 t … 3200 t + 3199` and the whole weight matrix, and writes back the
  block's product with the weights as rows `3200 t … 3200 t + 3199` of its result. Row `r` of the result is therefore written
  by point `r / 3200`, every row is written, and the result array is the whole matrix product `rows · weights`. The reshape
  after the region makes row `b · 4000 + f` frame `[b, f]`: the program's result is the transform `Cert.Dft.dft` of its arguments.
-/
import proofs.«153777_j56049323213334_2_alg».proof.Proof.Gen.KernelIdeal.Frame
import proofs.«153777_j56049323213334_2_alg».proof.Proof.DftSpec
import proofs.«153777_j56049323213334_2_alg».proof.Proof.MatmulBody
import proofs.«153777_j56049323213334_2_alg».proof.Proof.Operands
import Idealize.ShloMosaic.Lib.Pipeline.Value
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx Cert.Dft
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block each window is on at point `t`: the rows' window and the result's window on block `t` of the row axis, the
    weights' window always on its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The rows the region finds: the frames merged. -/
theorem rows_found (c : Dev nD) :
    (V m c main_v7 : S64000x512.Idx → EReal) = rows (m ((c : Thread nD τ).loc main_arg0)) := by
  refine Eq.trans ?_ (Operands.merged_eq _)
  show StableHlo.after hostOps0 (fun b => m (c, b)) (Proc.devRef .tc main_v7) = _
  after_results
  rfl

/-- The weights the region finds: the two tables interleaved. -/
theorem weights_found (c : Dev nD) :
    (V m c main_v6 : S512x514.Idx → EReal) = weights (m ((c : Thread nD τ).loc main_arg1)) (m ((c : Thread nD τ).loc main_arg2)) := by
  refine Eq.trans ?_ (Operands.interleave_eq _ _)
  show StableHlo.after hostOps0 (fun b => m (c, b)) (Proc.devRef .tc main_v6) = _
  after_results
  rfl

/-- WHAT POINT `t` WRITES BACK is block `t` of the whole product of the rows and the weights the region finds. -/
theorem flushed_eq (c : Dev nD) (t : Fin cfg0.N) :
    (dats m 0 c).flushed 2 t = ((cfg0.win 2).blk t).view.read (Elt Ideal) (mm (V m c main_v7) (V m c main_v6)) := by
  show (cfg0.win 2).cut (grid0.coords t) ((dats m 0 c).after 2 t) = _
  rw [after0_2]
  unfold out0_2
  rw [View.canon_unit_zero hz]
  simp only [View.ld_unit_zero (S := S3200x512) hz, View.ld_unit_zero (S := S512x514) hz]
  obtain ⟨e0, e1, e2, e3, e4, e5⟩ := idx_facts t
  funext j
  show k0_pay1 (iblk m c 0 t) (iblk m c 1 t) j = mm (V m c main_v7) (V m c main_v6) (((cfg0.win 2).blk t).view.emb j)
  refine (Body.stored_apply (iblk m c 0 t) (iblk m c 1 t) j).trans ?_
  unfold mm
  refine Finset.sum_congr rfl fun n _ => ?_
  have hj0 : (j 0).val < 3200 := (j 0).isLt
  have hj1 : (j 1).val < 514 := (j 1).isLt
  have hn : n.val < 512 := n.isLt
  have a0 : iblk m c 0 t (ix2 (j 0) n) = V m c main_v7 (ix2 ((((cfg0.win 2).blk t).view.emb j) 0) n) := by
    show V m c main_v7 (((cfg0.win 0).blk t).view.emb (ix2 (j 0) n)) = _
    refine congrArg (V m c main_v7) (funext fun a => Fin.ext ?_)
    match a with
    | ⟨0, _⟩ =>
      show win0_0.index t (0 : Fin 2) * 3200 + 1 * (j 0).val = win0_2.index t (0 : Fin 2) * 3200 + 1 * (j 0).val
      omega
    | ⟨1, _⟩ =>
      show win0_0.index t (1 : Fin 2) * 512 + 1 * n.val = n.val
      omega
  have a1 : iblk m c 1 t (ix2 n (j 1)) = V m c main_v6 (ix2 n ((((cfg0.win 2).blk t).view.emb j) 1)) := by
    show V m c main_v6 (((cfg0.win 1).blk t).view.emb (ix2 n (j 1))) = _
    refine congrArg (V m c main_v6) (funext fun a => Fin.ext ?_)
    match a with
    | ⟨0, _⟩ =>
      show win0_1.index t (0 : Fin 2) * 512 + 1 * n.val = n.val
      omega
    | ⟨1, _⟩ =>
      show win0_1.index t (1 : Fin 2) * 514 + 1 * (j 1).val = win0_2.index t (1 : Fin 2) * 514 + 1 * (j 1).val
      omega
  rw [a0, a1]

/-- An index of the result array is in point `t`'s block iff each coordinate is in the block's range on its axis. -/
theorem mem_blk (t : Fin cfg0.N) (i : S64000x514.Idx) :
    i ∈ ((cfg0.win 2).blk t).view.set ↔ ∀ a : Fin 2, win0_2.index t a * S3200x514.size a ≤ (i a).val ∧ (i a).val < win0_2.index t a * S3200x514.size a + S3200x514.size a := by
  show i ∈ ((View.whole main_v8).slice (win0_2.rect t)).set ↔ _
  rw [View.set_slice_whole, Rect.mem_set_unit]
  exact Iff.rfl

/-- Every row of the result is written: row `r` by point `r / 3200`. -/
theorem cover (i : S64000x514.Idx) :
    ∃ t : Fin cfg0.N, (cfg0.win 2).flush t = true ∧ i ∈ ((cfg0.win 2).blk t).view.set := by
  have hN : cfg0.N = 20 := N_0
  have hi0 : (i 0).val < 64000 := (i 0).isLt
  have hi1 : (i 1).val < 514 := (i 1).isLt
  have hlt : (i 0).val / 3200 < cfg0.N := by rw [hN]; omega
  obtain ⟨e0, e1, e2, e3, e4, e5⟩ := idx_facts ⟨(i 0).val / 3200, hlt⟩
  refine ⟨⟨(i 0).val / 3200, hlt⟩, flush0_2 _, ?_⟩
  rw [mem_blk]
  intro a
  match a with
  | ⟨0, _⟩ =>
    show win0_2.index ⟨(i 0).val / 3200, hlt⟩ (0 : Fin 2) * 3200 ≤ (i 0).val
      ∧ (i 0).val < win0_2.index ⟨(i 0).val / 3200, hlt⟩ (0 : Fin 2) * 3200 + 3200
    rw [e4]
    show (i 0).val / 3200 * 3200 ≤ (i 0).val ∧ (i 0).val < (i 0).val / 3200 * 3200 + 3200
    omega
  | ⟨1, _⟩ =>
    show win0_2.index ⟨(i 0).val / 3200, hlt⟩ (1 : Fin 2) * 514 ≤ (i 1).val
      ∧ (i 1).val < win0_2.index ⟨(i 0).val / 3200, hlt⟩ (1 : Fin 2) * 514 + 514
    rw [e5]
    omega

/-- THE RESULT ARRAY OF THE REGION after the run: the whole product. -/
theorem final (c : Dev nD) : (dats m 0 c).arrAt 2 cfg0.N = mm (V m c main_v7) (V m c main_v6) :=
  (dats m 0 c).arrAt_eq_of_cover 2 (mm (V m c main_v7) (V m c main_v6)) (fun t _ => flushed_eq m c t) cover

/-- THE PROGRAM'S RESULT: the reshape after the region, of the product, is the transform of the arguments. -/
theorem result_eq (c : Dev nD) :
    Pipeline.afterTail₀ cfgs (dats m) 0 (V0 m) [hostOps1] c main_v9
      = dft (m ((c : Thread nD τ).loc main_arg0)) (m ((c : Thread nD τ).loc main_arg1)) (m ((c : Thread nD τ).loc main_arg2)) := by
  have e : Pipeline.afterTail₀ cfgs (dats m) 0 (V0 m) [hostOps1] c main_v9
      = shapeCast S16x4000x514 ((dats m 0 c).arrAt 2 cfg0.N) shapeCasts_S64000x514_S16x4000x514 := by
    unfold Pipeline.afterTail₀
    show StableHlo.after hostOps1 _ (Proc.devRef .tc main_v9) = _
    after_results
    exact congrArg (fun y => shapeCast S16x4000x514 y shapeCasts_S64000x514_S16x4000x514)
      (Pipeline.withArrays_arr spec0 launch0.win.arr_inj c _ _ 2)
  rw [e, final, rows_found, weights_found]
  funext i
  have h0 : (i 0).val < 16 := (i 0).isLt
  have h1 : (i 1).val < 4000 := (i 1).isLt
  refine (Operands.split_apply _ i ⟨(i 0).val * 4000 + (i 1).val, by omega⟩ rfl).trans ?_
  exact mm_rows_weights _ _ _ i _ rfl

/-- The run, read: the result at the transform of the arguments, the arguments unchanged. -/
theorem run : θ_run defs (onTc (τ := τ) (main (F := Ideal))) ⟨m, fun _ => 0, ρ⟩ fun r => ∀ c : Dev nD,
      r.2.mem ((c.tc : Thread nD τ).loc main_v9)
        = dft (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v9 (Pipeline.mem_restRefs_of main_v9 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.KValue

end
-- ==== Proof.lean ====
/-
  The kernel and its reference compute the same one-sided discrete Fourier transform, over the extended reals.

  For frames `x[b, f, ·]` of 512 samples and two tables `re[k, n]`, `im[k, n]` of 257 bins, both programs end with

      out[b, f, q] = Σ_n x[b, f, n] · (if q even then re else im)[q / 2, n]          (Proof/DftSpec.lean, `Cert.Dft.dft`).

  The reference contracts every frame with each table and interleaves the two results bin by bin (Proof/ReferenceIsDft.lean).
  The kernel interleaves the TABLES first, into one 512 × 514 weight matrix, merges the frames into 64000 rows, multiplies the
  rows by the weights 3200 rows at a time, and splits the rows back into frames (Proof/Operands.lean: the layouts read at an
  index; Proof/MatmulBody.lean: what one block's product holds; Proof/KernelValue.lean: the 20 blocks tile the rows, so the result
  is the whole product). The two sums have the same terms in the same order, so nothing about the extended reals beyond the
  operations' definitions is used, and the finiteness of the inputs is not needed. The kernel's change of float format is the
  identity on extended reals, and no operation was rewritten when the kernel was idealized.
-/
import proofs.«153777_j56049323213334_2_alg».proof.Defs
import proofs.«153777_j56049323213334_2_alg».proof.Proof.Gen.Kernel
import proofs.«153777_j56049323213334_2_alg».proof.Proof.Gen.Kernel.Skeleton
import proofs.«153777_j56049323213334_2_alg».proof.Proof.Gen.Kernel.Launch
import proofs.«153777_j56049323213334_2_alg».proof.Proof.Gen.Kernel.Points
import proofs.«153777_j56049323213334_2_alg».proof.Proof.Gen.Kernel.Frame
import proofs.«153777_j56049323213334_2_alg».proof.Proof.Gen.KernelIdeal
import proofs.«153777_j56049323213334_2_alg».proof.Proof.Gen.KernelIdeal.Skeleton
import proofs.«153777_j56049323213334_2_alg».proof.Proof.Gen.KernelIdeal.Launch
import proofs.«153777_j56049323213334_2_alg».proof.Proof.Gen.KernelIdeal.Points
import proofs.«153777_j56049323213334_2_alg».proof.Proof.Gen.KernelIdeal.Frame
import proofs.«153777_j56049323213334_2_alg».proof.Proof.Gen.ReferenceIdeal
import proofs.«153777_j56049323213334_2_alg».proof.Proof.Gen.Pre_finite_inputs
import proofs.«153777_j56049323213334_2_alg».proof.Proof.Gen.ReferenceIdeal.Run
import proofs.«153777_j56049323213334_2_alg».proof.Proof.Gen.ReferenceIdeal.Read
import proofs.«153777_j56049323213334_2_alg».proof.Proof.DftSpec
import proofs.«153777_j56049323213334_2_alg».proof.Proof.ReferenceIsDft
import proofs.«153777_j56049323213334_2_alg».proof.Proof.KernelValue
import Idealize.ShloMosaic.Adequacy
import Idealize.ShloMosaic.Init

noncomputable section

namespace Cert.Proof

open Idealize.ShloMosaic Idealize.SL.Sem

/-- The kernel as printed runs, faults nowhere and leaves its arguments as launched. -/
theorem frame_kernel : Cert.frame_Kernel :=
  fun m ρ _ => Cert.Kernel.Gen.frame m ρ

/-- So does the kernel read over the extended reals. -/
theorem frame_kernelIdeal : Cert.frame_KernelIdeal :=
  fun m ρ _ => Cert.KernelIdeal.Gen.frame m ρ

/-- And the reference: its run, with what it says of the result dropped. -/
theorem frame_reference : Cert.frame_ReferenceIdeal :=
  fun m ρ _ => (θ_run Cert.ReferenceIdeal.defs _ _).mono (fun _ h c => (h c).2)
    (Cert.ReferenceIdeal.Value.run (F := Ideal) m ρ)

/-- Both programs end at the transform of arguments that agree. -/
theorem algebraic : Cert.algebraic_KernelIdeal_ReferenceIdeal := by
  intro m ρ m' ρ' _ hagree
  refine ⟨fun c => Cert.Dft.dft (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
